-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S32768x512 : Shape := ⟨2, ![32768, 512]⟩
abbrev S16x128 : Shape := ⟨2, ![16, 128]⟩
abbrev S2048x512 : Shape := ⟨2, ![2048, 512]⟩
abbrev S8x128 : Shape := ⟨2, ![8, 128]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S_ : Shape := ⟨0, ![]⟩

abbrev nBuf : Space → Nat
  | .hbm => 12
  | .vmem => 6
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S32768x512, .f32⟩
  | .hbm, ⟨3, _⟩ => ⟨S32768x512, .f32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S8x128, .f32⟩
  | .local _ .vmem, ⟨5, _⟩ => ⟨S8x128, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x1x512x512_S32768x512 : S64x1x512x512.ShapeCasts S32768x512
  inb_S8x128_S8x128_0_0 : ∀ a, (![0, 0] : Fin 2 → Nat) a + S8x128.size a ≤ S8x128.size a
  h_S8x128 : 0 < S8x128.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x1x512x512, .f32⟩
  | .hbm, ⟨3, _⟩ => ⟨S64x1x512x512, .f32⟩
  | .hbm, ⟨4, _⟩ => ⟨S_, .f32⟩
  | .hbm, ⟨5, _⟩ => ⟨S64x1x512x512, .f32⟩
  | .hbm, ⟨6, _⟩ => ⟨S64x1x512x512, .f32⟩
  | .hbm, ⟨7, _⟩ => ⟨S_, .f32⟩
  | .hbm, ⟨8, _⟩ => ⟨S64x1x512x512, .f32⟩
  | .hbm, ⟨9, _⟩ => ⟨S64x1x512x512, .f32⟩
  | .hbm, ⟨10, _⟩ => ⟨S_, .f32⟩
  | .hbm, ⟨11, _⟩ => ⟨S64x1x512x512, .f32⟩
  | .hbm, ⟨12, _⟩ => ⟨S64x1x512x512, .f32⟩
  | .hbm, ⟨13, _⟩ => ⟨S64x1x512x512, .f32⟩
  | .hbm, ⟨14, _⟩ => ⟨S64x1x512x512, .f32⟩
  | .hbm, ⟨15, _⟩ => ⟨S_, .f32⟩
  | .hbm, ⟨16, _⟩ => ⟨S64x1x512x512, .f32⟩
  | .hbm, ⟨17, _⟩ => ⟨S64x1x512x512, .f32⟩
  | .hbm, ⟨18, _⟩ => ⟨S_, .f32⟩
  | .hbm, ⟨19, _⟩ => ⟨S64x1x512x512, .f32⟩
  | .hbm, ⟨20, _⟩ => ⟨S64x1x512x512, .f32⟩
  | .hbm, ⟨21, _⟩ => ⟨S_, .f32⟩
  | .hbm, ⟨22, _⟩ => ⟨S64x1x512x512, .f32⟩
  | .hbm, ⟨23, _⟩ => ⟨S64x1x512x512, .f32⟩
  | .hbm, ⟨24, _⟩ => ⟨S64x1x512x512, .f32⟩
  | .hbm, ⟨25, _⟩ => ⟨S64x1x512x512, .f32⟩
  | .hbm, ⟨26, _⟩ => ⟨S64x1x512x512, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts₀]

class Facts : Prop extends Facts₀ where

variable [Facts]
-- ==== Proof.LossTerm.lean ====
/-
  The summand of the binary cross-entropy and the two scalar facts its mean needs, on the extended reals.

  For a logit `x` and a label `l` the summand is
      l · log(σ(x) + ε) + (1 − l) · log(1 − σ(x) + ε),      σ(x) = 1 / (1 + e^(−x)),
  with ε the binary value of the f32 word nearest 1e-7 and 1 the f32 word of one, both kept as words:
  the same words occur on both sides of the comparison, so they are never evaluated, except that the
  word of one IS the real 1 where the sigmoid is spelled out as a quotient.

  The second fact is about a total that was written 1024 times over and then divided by 1024:
  1024 copies of any extended real `S`, summed and divided by the real 1024, give `S` back — at the
  two infinities as well, since a positive real factor fixes them.
-/
import Idealize.ShloMosaic.PureOps.Ideal
import Idealize.ShloMosaic.PureOps.Ideal.Laws
import Idealize.ShloMosaic.PureOps.IdealRules

noncomputable section

namespace Cert.BceMean

open Idealize.ShloMosaic

/-- The f32 word `0x3F800000` denotes the real one. -/
theorem word_one : Ideal.ofBits .f32 0x3F800000#32 = 1 := IdealRules.sign_bit.ideal_onePat .f32

/-- The f32 word `0x44800000` denotes the real 1024. -/
theorem word_1024 : Ideal.ofBits .f32 0x44800000#32 = ((1024 : ℝ) : EReal) := by
  simp [Ideal.ofBits, Ideal.ieee, -EReal.coe_mul]; norm_num

/-- The summand: `l · log(σ x + ε) + (1 − l) · log(1 − σ x + ε)`. -/
def term (x l : EReal) : EReal :=
  l * Ideal.log (Ideal.logistic x + Ideal.ofBits .f32 0x33D6BF95#32)
    + (Ideal.ofBits .f32 0x3F800000#32 - l)
      * Ideal.log (Ideal.ofBits .f32 0x3F800000#32 - Ideal.logistic x + Ideal.ofBits .f32 0x33D6BF95#32)

/-- The negated mean of a total `S` over the 2^24 elements: `(−S) / 16777216`, the divisor kept as its f32 word. -/
def negMean (S : EReal) : EReal := Ideal.div (-S) (Ideal.ofBits .f32 0x4B800000#32)

/-- The sigmoid spelled as the quotient `1 / (1 + e^(−x))` over the word of one is the sigmoid. -/
theorem quotient_eq_logistic (x : EReal) :
    Ideal.div (Ideal.ofBits .f32 0x3F800000#32) (Ideal.ofBits .f32 0x3F800000#32 + Ideal.exp (-x)) = Ideal.logistic x := by
  rw [word_one]; rfl

/-- 1024 copies of `S`, summed, divided by 1024: `S`, on every extended real. -/
theorem copies_div (S : EReal) : Ideal.div ((1024 : ℕ) • S) (Ideal.ofBits .f32 0x44800000#32) = S := by
  rw [word_1024, Ideal.div_coe (by norm_num : (1024 : ℝ) ≠ 0), EReal.nsmul_eq_mul]
  have hcast : ((1024 : ℕ) : EReal) = ((1024 : ℝ) : EReal) := by norm_cast
  rw [hcast]
  induction S using EReal.rec with
  | bot => rw [EReal.coe_mul_bot_of_pos (by norm_num), EReal.bot_mul_coe_of_pos (by norm_num)]
  | top => rw [EReal.coe_mul_top_of_pos (by norm_num), EReal.top_mul_coe_of_pos (by norm_num)]
  | coe r => rw [← EReal.coe_mul, ← EReal.coe_mul]; exact congrArg Real.toEReal (by ring)

end Cert.BceMean

end
-- ==== Proof.RefMean.lean ====
/-
  The reference side: jnp's `−sum(l · log(σ x + ε) + (1 − l) · log(1 − σ x + ε)) / 2^24` over the whole
  [64, 1, 512, 512] arrays, read one operation at a time.

  At each index the reference's summand is the term of LossTerm: jax expands its sigmoid on the host into
  negate, exponential, add and divide, which on the extended reals is the sigmoid itself. The sum over every
  axis starts from the word of zero, which is the real zero, so the result is the negated mean of the total
  of the terms over all indices.
-/
import proofs.«159125_j76184129897141_2_alg».proof.Proof.Gen.ReferenceIdeal.Read
import proofs.«159125_j76184129897141_2_alg».proof.Proof.LossTerm

noncomputable section

namespace Cert.BceMean.Ref

open Idealize.ShloMosaic Cert.ReferenceIdeal Cert.ReferenceIdeal.Read Cert.BceMean

/-- The reference's summand at an index is the term of the logit and the label there. -/
theorem summand (x0 x1 : (⟨S64x1x512x512, .f32⟩ : BufTy).Contents (Elt Ideal)) (j : S64x1x512x512.Idx) :
    val_main_v18 (F := Ideal) x0 x1 j = term (x0 j) (x1 j) := by
  simp only [val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_cst_apply, val_main_cst_0_apply, val_main_cst_1_apply,
    val_main_cst_2_apply, val_main_cst_3_apply, val_main_cst_4_apply,
    Ideal.addf_def, Ideal.subf_def, Ideal.mulf_def, Ideal.hostDivf_def, Ideal.hostNegf_def, Ideal.negf_def,
    Ideal.hostUnary_exp_def, Ideal.hostUnary_log_def, Ideal.ofBits_def, quotient_eq_logistic]
  rfl

/-- The reference's result: the negated mean of the total of the terms over every index. -/
theorem result (x0 x1 : (⟨S64x1x512x512, .f32⟩ : BufTy).Contents (Elt Ideal)) :
    val_main_v21 (F := Ideal) x0 x1 = fun _ => negMean (∑ j : S64x1x512x512.Idx, term (x0 j) (x1 j)) := by
  funext i
  rw [val_main_v21_apply, val_main_v20_apply, val_main_v19_apply, val_main_cst_5_apply, val_main_cst_6_apply]
  simp only [Ideal.hostDivf_def, Ideal.hostNegf_def, Ideal.negf_def, Ideal.ofBits_def, Ideal.ofBits_zero_f32, zero_add,
    summand]
  rfl

end Cert.BceMean.Ref

end
-- ==== Proof.TileTotal.lean ====
/-
  One body run of the kernel, as arithmetic: what the body stores into the [8, 128] output block.

  The body computes the term of LossTerm at every element of its [2048, 512] tile of logits and labels, sums each row
  over its 512 lanes, sums the 2048 row sums, and adds that one number to every entry of the block it read.
  Summing by rows and then over the rows is summing over the whole tile (a sum over the fibres of "drop the lane
  coordinate"); the casts in between only rename indices. So the stored block is, entry by entry, the block read
  plus the tile's total. The reset at a core's first point stores the word of zero, the real zero.
-/
import proofs.«159125_j76184129897141_2_alg».proof.Proof.Gen.KernelIdeal.Skeleton
import proofs.«159125_j76184129897141_2_alg».proof.Proof.LossTerm
import Idealize.ShloMosaic.Lib.Pipeline.Value
import Idealize.ShloMosaic.PureOps.Ideal.Laws

noncomputable section

namespace Cert.BceMean.Tile

open Idealize.ShloMosaic Cert.KernelIdeal Cert.KernelIdeal.Gen Cert.BceMean

/-- The total of the term over a [2048, 512] tile of logits `x` and labels `l`. -/
def tileTotal (x l : S2048x512.Idx → EReal) : EReal := ∑ y : S2048x512.Idx, term (x y) (l y)

/-- Row sums over the lanes, cast to a column, summed over the rows: the sum over the whole tile. -/
theorem rows_then_column (v : FVec Ideal S2048x512 .f32) (h1 : S2048x512.Reduces [1] S2048)
    (hc : S2048.ShapeCasts S2048x1) (h2 : S2048x1.Reduces [0] S1) (hφ : FKind.Formats .f32)
    (hacc : (0x00000000#32 : BitVec 32) = FKind.add.neutral .f32 hφ) (i : S1.Idx) :
    multiReduction .add [0] S1 (shapeCast S2048x1 (multiReduction .add [1] S2048 v 0x00000000#32 h1 hφ hacc) hc)
      0x00000000#32 h2 hφ hacc i = ∑ y : S2048x512.Idx, v y := by
  rw [Ideal.multiReduction_add_total _ _ h2 (fun b => by fin_cases b; rfl)]
  refine (Equiv.sum_comp (Shape.reshapeEquiv hc) (multiReduction .add [1] S2048 v 0x00000000#32 h1 hφ hacc)).trans ?_
  exact Finset.sum_fiberwise Finset.univ h1.drop v

/-- The reset stores the real zero at every entry. -/
theorem reset_apply (j : S8x128.Idx) : k0_pay1 (F := Ideal) j = 0 := Ideal.ofBits_zero_f32

/-- The accumulation stores, at every entry, the entry read plus the tile's total. -/
theorem step_apply (x l : Vec Ideal S2048x512 .f32) (acc : Vec Ideal S8x128 .f32) (j : S8x128.Idx) :
    k0_pay2 (F := Ideal) x l acc j = acc j + tileTotal x l := by
  unfold k0_pay2
  rw [shapeCast_self x, shapeCast_self l, shapeCast_self acc]
  refine congrArg (acc j + ·) ?_
  unfold broadcastTo shapeCast
  refine (rows_then_column _ reduces_S2048x512_S2048 shapeCasts_S2048_S2048x1 reduces_S2048x1_S1 _ _ _).trans ?_
  exact Finset.sum_congr rfl fun y _ => rfl

end Cert.BceMean.Tile

end
-- ==== Proof.RunningSum.lean ====
/-
  The accumulator across the grid. The 16 grid points run in order; point `t` works on core `t / 8`'s output block
  and is that core's step `t % 8`. At a core's first step the body resets the block to zero and then adds the tile's
  total; at every later step it adds the tile's total to what the step before left. So after point `n` every entry
  of the block holds the sum of the tile totals of the points `8·(n / 8), …, n`: by induction on the point.
-/
import proofs.«159125_j76184129897141_2_alg».proof.Proof.Gen.KernelIdeal.Frame
import proofs.«159125_j76184129897141_2_alg».proof.Proof.TileTotal
import Idealize.ShloMosaic.Lib.Pipeline.Value
import Idealize.ShloMosaic.Lib.Tactic

noncomputable section

namespace Cert.BceMean.Acc

open Idealize.ShloMosaic Idealize.ShloMosaic.TcCoe Idealize.SL.Sem
open Idealize.ShloMosaic.Pipeline (Dat)
open Cert.KernelIdeal Cert.KernelIdeal.Gen Cert.BceMean

theorem zero_offsets : (![0, 0] : Fin 2 → Nat) = fun _ => 0 := funext fun a => by fin_cases a <;> rfl

section AnyValues
variable {F : FTy → Type} [FloatOps F]

/-- A later step of a core: the block found, `xo`, is read whole and the body's one store covers the block. -/
theorem later_step (c : Dev nD) (i : grid0.Coords) (a2 : Memref sig .tc .vmem S2048x512 .f32) (h2 : a2.IsWhole)
    (a3 : Memref sig .tc .vmem S2048x512 .f32) (h3 : a3.IsWhole) (a4 : Memref sig .tc .vmem S8x128 .f32) (h4 : a4.IsWhole)
    (hc : ¬cond0_0 i) (x0 x1 : Vec F S2048x512 .f32) (xo : Vec F S8x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero zero_offsets]
  simp only [View.readAt_eq_ld, h2.read_unread, h3.read_unread, h4.read_unread,
    View.ld_unit_zero (S := S2048x512) zero_offsets, View.ld_unit_zero (S := S8x128) zero_offsets]

/-- A core's first step: the reset block is stored, read back, and the body's second store covers the block. -/
theorem first_step (c : Dev nD) (i : grid0.Coords) (a2 : Memref sig .tc .vmem S2048x512 .f32) (h2 : a2.IsWhole)
    (a3 : Memref sig .tc .vmem S2048x512 .f32) (h3 : a3.IsWhole) (a4 : Memref sig .tc .vmem S8x128 .f32) (h4 : a4.IsWhole)
    (hc : cond0_0 i) (x0 x1 : Vec F S2048x512 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S8x128) zero_offsets, View.readCov_unit_zero (S := S8x128) _ zero_offsets]
  simp only [View.readAt_eq_ld, h2.read_unread, h3.read_unread, View.ld_unit_zero (S := S2048x512) zero_offsets]

end AnyValues

/-! ## The running sum, on the extended reals -/

variable (m : (ℓ : Loc nD τ sig) → Buf (Elt Ideal) ℓ)

/-- The total of the term over the tile of grid point `k` (zero past the grid's 16 points). -/
def pointTotal (c : Dev nD) (k : ℕ) : EReal :=
  if h : k < cfg0.N then Tile.tileTotal (iblk m c 0 ⟨k, h⟩) (iblk m c 1 ⟨k, h⟩) else 0

theorem pointTotal_of_lt (c : Dev nD) (k : ℕ) (h : k < cfg0.N) :
    pointTotal m c k = Tile.tileTotal (iblk m c 0 ⟨k, h⟩) (iblk m c 1 ⟨k, h⟩) := dif_pos h

/-- After point `n` every entry of the output block holds the totals of the points `8·(n / 8), …, n`, summed. -/
theorem block_after (c : Dev nD) : ∀ (n : ℕ) (h : n < cfg0.N) (j : S8x128.Idx),
    outsAt0 m c n h j = ∑ k ∈ Finset.range (n % 8 + 1), pointTotal m c (8 * (n / 8) + k)
  | 0, h, j => by
    rw [outsAt0_A m c ⟨0, h⟩ rfl, first_step, Tile.step_apply, Tile.reset_apply, zero_add]
    simp only [Nat.zero_mod, Nat.zero_div, Nat.mul_zero, Nat.zero_add, Finset.sum_range_one]
    exact (pointTotal_of_lt m c 0 h).symm
  | n + 1, h, j => by
    by_cases h0 : (n + 1) % 8 = 0
    · rw [outsAt0_A m c ⟨n + 1, h⟩ h0, first_step, Tile.step_apply, Tile.reset_apply, zero_add, h0, Nat.zero_add,
        Finset.sum_range_one, show 8 * ((n + 1) / 8) + 0 = n + 1 by omega]
      exact (pointTotal_of_lt m c (n + 1) h).symm
    · rw [outsAt0_B m c ⟨n + 1, h⟩ h0, later_step, Tile.step_apply]
      show outsAt0 m c n _ j + _ = _
      rw [block_after c n _ j, show (n + 1) % 8 = n % 8 + 1 by omega, show (n + 1) / 8 = n / 8 by omega,
        Finset.sum_range_succ (n := n % 8 + 1), show 8 * (n / 8) + (n % 8 + 1) = n + 1 by omega]
      exact congrArg _ (pointTotal_of_lt m c (n + 1) h).symm

end Cert.BceMean.Acc

end
-- ==== Proof.OutputArray.lean ====
/-
  The [16, 128] array of partial sums as the region leaves it. Core `q`'s output block is rows `8q … 8q + 7`; it is
  written back once, after the core's last step (points 7 and 15), when every entry holds the sum of the core's eight
  tile totals. So the array is one function of the index: at row `r` it is core `r / 8`'s total. Each of the two blocks
  written back restricts that function, and the two blocks cover the array.
-/
import proofs.«159125_j76184129897141_2_alg».proof.Proof.RunningSum

noncomputable section

namespace Cert.BceMean.Out

open Idealize.ShloMosaic Idealize.ShloMosaic.TcCoe Idealize.SL.Sem
open Idealize.ShloMosaic.Pipeline (Dat)
open Cert.KernelIdeal Cert.KernelIdeal.Gen Cert.BceMean

variable (m : (ℓ : Loc nD τ sig) → Buf (Elt Ideal) ℓ)

/-- Core `q`'s total: its eight tile totals, summed. -/
def coreTotal (c : Dev nD) (q : ℕ) : EReal := ∑ k ∈ Finset.range 8, Acc.pointTotal m c (8 * q + k)

/-- The array of partial sums: at row `r`, core `r / 8`'s total. -/
def partials (c : Dev nD) : Buf (Elt Ideal) ((c : Thread nD τ).loc main_v2) := fun i => coreTotal m c ((i 0).val / 8)

/-- Point `t`'s output block is block row `t / 8`, block column 0. -/
theorem block_row : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- What a flushing point writes back is its block of the array of partial sums. -/
theorem flushed_eq (c : Dev nD) (t : Fin cfg0.N) (hf : (cfg0.win 2).flush t = true) :
    (dats m 0 c).flushed 2 t = ((cfg0.win 2).blk t).view.read (Elt Ideal) (partials m c) := by
  have h7 : t.val % 8 = 7 := (flush0_2 t).mp hf
  show (cfg0.win 2).cut (grid0.coords t) ((dats m 0 c).after 2 t) = _
  rw [after0_2]
  funext j
  show outsAt0 m c t.val t.isLt j = coreTotal m c ((((cfg0.win 2).blk t).view.emb j 0).val / 8)
  rw [Acc.block_after m c t.val t.isLt j, h7]
  have he : (((cfg0.win 2).blk t).view.emb j 0).val = win0_2.index t (0 : Fin 2) * 8 + 1 * (j 0).val := rfl
  have hj : (j 0).val < 8 := (j 0).isLt
  rw [he, (block_row t).1, show (t.val / 8 * 8 + 1 * (j 0).val) / 8 = t.val / 8 by omega]
  rfl

/-- An index is in point `t`'s output block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- The array after the region is the array of partial sums: row `r` is written back by point `8·(r / 8) + 7`. -/
theorem final (c : Dev nD) : (dats m 0 c).arrAt 2 cfg0.N = partials m c :=
  (dats m 0 c).arrAt_eq_of_cover 2 (partials m c) (flushed_eq m c) fun i => by
    have hi0 : (i 0 : Nat) < 16 := (i 0).isLt
    have hi1 : (i 1 : Nat) < 128 := (i 1).isLt
    have hN : cfg0.N = 16 := N_0
    have ht : 8 * ((i 0 : Nat) / 8) + 7 < cfg0.N := by rw [hN]; omega
    obtain ⟨e0, e1⟩ := block_row ⟨8 * ((i 0 : Nat) / 8) + 7, ht⟩
    refine ⟨⟨8 * ((i 0 : Nat) / 8) + 7, ht⟩, (flush0_2 _).mpr (by show (8 * ((i 0 : Nat) / 8) + 7) % 8 = 7; omega), ?_⟩
    rw [mem_blk]
    intro a
    match a with
    | ⟨0, _⟩ =>
      show win0_2.index ⟨8 * ((i 0 : Nat) / 8) + 7, ht⟩ (0 : Fin 2) * 8 ≤ (i 0 : Nat) ∧ (i 0 : Nat) < win0_2.index ⟨8 * ((i 0 : Nat) / 8) + 7, ht⟩ (0 : Fin 2) * 8 + 8
      rw [e0]; show (8 * ((i 0 : Nat) / 8) + 7) / 8 * 8 ≤ (i 0 : Nat) ∧ (i 0 : Nat) < (8 * ((i 0 : Nat) / 8) + 7) / 8 * 8 + 8; omega
    | ⟨1, _⟩ =>
      show win0_2.index ⟨8 * ((i 0 : Nat) / 8) + 7, ht⟩ (1 : Fin 2) * 128 ≤ (i 1 : Nat) ∧ (i 1 : Nat) < win0_2.index ⟨8 * ((i 0 : Nat) / 8) + 7, ht⟩ (1 : Fin 2) * 128 + 128
      rw [e1]; omega

end Cert.BceMean.Out

end
-- ==== Proof.TileCover.lean ====
/-
  The tiles cover the arrays. The region reads the two arguments reshaped to [32768, 512] (row-major: the same
  elements in the same order), and grid point `t` reads rows `2048·t … 2048·t + 2047` of each. The map
  `(t, y) ↦ (2048·t + y₀, y₁)` from (point, index inside a tile) to indices of the [32768, 512] array is a bijection,
  so the sixteen tile totals sum to the total of the term over the whole reshaped arrays; and a reshape only renames
  the indices, so that is the total over the [64, 1, 512, 512] arguments. No finiteness is used: the extended reals'
  addition is commutative and associative, and nothing else is asked of it here.
-/
import proofs.«159125_j76184129897141_2_alg».proof.Proof.RunningSum
import Idealize.ShloMosaic.Lib.ValueIdx
import Idealize.ShloMosaic.Lib.StableHlo.Run

noncomputable section

namespace Cert.BceMean.Cover

open Idealize.ShloMosaic Idealize.ShloMosaic.TcCoe Idealize.SL.Sem Idealize.ShloMosaic.ValueIdx
open Cert.KernelIdeal Cert.KernelIdeal.Gen Cert.BceMean

variable (m : (ℓ : Loc nD τ sig) → Buf (Elt Ideal) ℓ)

/-- The logits as the region finds them: the first argument reshaped to [32768, 512]. -/
theorem rows_arg0 (c : Dev nD) :
    (V m c main_v0 : S32768x512.Idx → EReal)
      = shapeCast S32768x512 (m ((c : Thread nD τ).loc main_arg0)) shapeCasts_S64x1x512x512_S32768x512 := by
  show StableHlo.after hostOps0 (fun b => m (c, b)) (Proc.devRef .tc main_v0) = _
  after_results
  rfl

/-- The labels as the region finds them: the second argument reshaped to [32768, 512]. -/
theorem rows_arg1 (c : Dev nD) :
    (V m c main_v1 : S32768x512.Idx → EReal)
      = shapeCast S32768x512 (m ((c : Thread nD τ).loc main_arg1)) shapeCasts_S64x1x512x512_S32768x512 := by
  show StableHlo.after hostOps0 (fun b => m (c, b)) (Proc.devRef .tc main_v1) = _
  after_results
  rfl

/-- Point `t`'s two input blocks are block row `t`, block column 0. -/
theorem tile_row : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Where entry `y` of point `t`'s tile sits in the [32768, 512] array: row `2048·t + y₀`, lane `y₁`. A bijection. -/
def place : Fin cfg0.N × S2048x512.Idx ≃ S32768x512.Idx where
  toFun p := ix2 ⟨2048 * p.1.val + (p.2 0).val, by
      have h0 : (p.2 0).val < 2048 := (p.2 0).isLt
      have ht : p.1.val < 16 := lt_of_lt_of_eq p.1.isLt N_0
      omega⟩ ⟨(p.2 1).val, (p.2 1).isLt⟩
  invFun j := (⟨(j 0).val / 2048, by
      have h0 : (j 0).val < 32768 := (j 0).isLt
      rw [show cfg0.N = 16 from N_0]; omega⟩,
    ix2 ⟨(j 0).val % 2048, Nat.mod_lt _ (by decide)⟩ ⟨(j 1).val, (j 1).isLt⟩)
  left_inv := fun ⟨t, y⟩ => by
    have h0 : (y 0).val < 2048 := (y 0).isLt
    refine Prod.ext (Fin.ext ?_) (funext fun a => ?_)
    · show (2048 * t.val + (y 0).val) / 2048 = t.val
      omega
    · match a with
      | ⟨0, _⟩ => exact Fin.ext (show (2048 * t.val + (y 0).val) % 2048 = (y 0).val by omega)
      | ⟨1, _⟩ => rfl
  right_inv := fun j => funext fun a => by
    match a with
    | ⟨0, _⟩ => exact Fin.ext (show 2048 * ((j 0).val / 2048) + (j 0).val % 2048 = (j 0).val by omega)
    | ⟨1, _⟩ => rfl

/-- Summing any function of the [32768, 512] indices tile by tile is summing it over all of them. -/
theorem sum_tiles {M : Type} [AddCommMonoid M] (g : S32768x512.Idx → M) :
    ∑ t : Fin cfg0.N, ∑ y : S2048x512.Idx, g (place (t, y)) = ∑ i : S32768x512.Idx, g i :=
  (Fintype.sum_prod_type (fun p : Fin cfg0.N × S2048x512.Idx => g (place p))).symm.trans (Equiv.sum_comp place g)

/-- The logits' block at point `t`, at `y`: the reshaped array at the placed index. -/
theorem iblk0_apply (c : Dev nD) (t : Fin cfg0.N) (y : S2048x512.Idx) :
    (iblk m c 0 t : S2048x512.Idx → EReal) y = (V m c main_v0 : S32768x512.Idx → EReal) (place (t, y)) := by
  obtain ⟨e0, e1, -, -⟩ := tile_row t
  unfold iblk
  rw [View.read_apply]
  show V m c main_v0 _ = V m c main_v0 _
  congr 1
  funext a
  apply Fin.ext
  match a with
  | ⟨0, _⟩ => show win0_0.index t (0 : Fin 2) * 2048 + 1 * (y 0).val = 2048 * t.val + (y 0).val; rw [e0]; omega
  | ⟨1, _⟩ => show win0_0.index t (1 : Fin 2) * 512 + 1 * (y 1).val = (y 1).val; rw [e1]; omega

/-- The labels' block at point `t`, at `y`: the reshaped array at the placed index. -/
theorem iblk1_apply (c : Dev nD) (t : Fin cfg0.N) (y : S2048x512.Idx) :
    (iblk m c 1 t : S2048x512.Idx → EReal) y = (V m c main_v1 : S32768x512.Idx → EReal) (place (t, y)) := by
  obtain ⟨-, -, e0, e1⟩ := tile_row t
  unfold iblk
  rw [View.read_apply]
  show V m c main_v1 _ = V m c main_v1 _
  congr 1
  funext a
  apply Fin.ext
  match a with
  | ⟨0, _⟩ => show win0_1.index t (0 : Fin 2) * 2048 + 1 * (y 0).val = 2048 * t.val + (y 0).val; rw [e0]; omega
  | ⟨1, _⟩ => show win0_1.index t (1 : Fin 2) * 512 + 1 * (y 1).val = (y 1).val; rw [e1]; omega

/-- The sixteen tile totals sum to the total of the term over the whole arguments. -/
theorem totals_sum (c : Dev nD) :
    ∑ k ∈ Finset.range 16, Acc.pointTotal m c k
      = ∑ j : S64x1x512x512.Idx, term (m ((c : Thread nD τ).loc main_arg0) j) (m ((c : Thread nD τ).loc main_arg1) j) := by
  have hN : cfg0.N = 16 := N_0
  calc ∑ k ∈ Finset.range 16, Acc.pointTotal m c k
      = ∑ k ∈ Finset.range cfg0.N, Acc.pointTotal m c k := by rw [hN]
    _ = ∑ t : Fin cfg0.N, Acc.pointTotal m c t.val := Finset.sum_range _
    _ = ∑ t : Fin cfg0.N, ∑ y : S2048x512.Idx,
          term ((V m c main_v0 : S32768x512.Idx → EReal) (place (t, y))) ((V m c main_v1 : S32768x512.Idx → EReal) (place (t, y))) :=
        Finset.sum_congr rfl fun t _ => by
          rw [Acc.pointTotal_of_lt m c t.val t.isLt]
          unfold Tile.tileTotal
          exact Finset.sum_congr rfl fun y _ => by rw [← iblk0_apply m c t y, ← iblk1_apply m c t y]
    _ = ∑ i : S32768x512.Idx, term ((V m c main_v0 : S32768x512.Idx → EReal) i) ((V m c main_v1 : S32768x512.Idx → EReal) i) :=
        sum_tiles fun i => term ((V m c main_v0 : S32768x512.Idx → EReal) i) ((V m c main_v1 : S32768x512.Idx → EReal) i)
    _ = ∑ j : S64x1x512x512.Idx, term (m ((c : Thread nD τ).loc main_arg0) j) (m ((c : Thread nD τ).loc main_arg1) j) := by
        rw [rows_arg0, rows_arg1]
        exact Equiv.sum_comp (Shape.reshapeEquiv shapeCasts_S64x1x512x512_S32768x512) fun j =>
          term (m ((c : Thread nD τ).loc main_arg0) j) (m ((c : Thread nD τ).loc main_arg1) j)

end Cert.BceMean.Cover

end
-- ==== Proof.KernelMean.lean ====
/-
  The kernel's result. After the region the host sums the [16, 128] array of partial sums from the word of zero,
  divides by 1024, negates, and divides by 2^24. Rows 0–7 hold core 0's total and rows 8–15 core 1's, each 1024
  times over, so the sum is 1024 copies of the two cores' totals added; dividing by 1024 gives that back on every
  extended real (LossTerm), the two cores' totals are the sixteen tile totals, and those are the total of the term
  over the whole arguments (TileCover). What is left is the negated mean, as on the reference's side.
-/
import proofs.«159125_j76184129897141_2_alg».proof.Proof.OutputArray
import proofs.«159125_j76184129897141_2_alg».proof.Proof.TileCover
import Idealize.ShloMosaic.Lib.StableHlo.Run
import Idealize.ShloMosaic.PureOps.Ideal.Laws

noncomputable section

namespace Cert.BceMean.Kernel

open Idealize.ShloMosaic Idealize.ShloMosaic.TcCoe Idealize.SL.Sem Idealize.ShloMosaic.ValueIdx
open Idealize.ShloMosaic.Pipeline (Dat)
open Cert.KernelIdeal Cert.KernelIdeal.Gen Cert.BceMean

variable (m : (ℓ : Loc nD τ sig) → Buf (Elt Ideal) ℓ) (ρ : Dev nD → PrngReg)

/-- The whole-array total of the term over the two arguments as launched. -/
def argsTotal (c : Dev nD) : EReal :=
  ∑ j : S64x1x512x512.Idx, term (m ((c : Thread nD τ).loc main_arg0) j) (m ((c : Thread nD τ).loc main_arg1) j)

/-- The array of partial sums adds up to 1024 copies of the two cores' totals. -/
theorem partials_sum (c : Dev nD) :
    ∑ i : S16x128.Idx, Out.coreTotal m c ((i 0).val / 8) = (1024 : ℕ) • (Out.coreTotal m c 0 + Out.coreTotal m c 1) := by
  rw [sum_idx2 (fun i : S16x128.Idx => Out.coreTotal m c ((i 0).val / 8))]
  show ∑ a : Fin 16, ∑ b : Fin 128, Out.coreTotal m c (a.val / 8) = _
  simp only [Finset.sum_const, Finset.card_univ, Fintype.card_fin]
  rw [Fin.sum_univ_eq_sum_range (fun a => (128 : ℕ) • Out.coreTotal m c (a / 8)) 16]
  simp only [Finset.sum_range_succ, Finset.sum_range_zero, Nat.reduceDiv]
  generalize Out.coreTotal m c 0 = A
  generalize Out.coreTotal m c 1 = B
  abel

/-- The two cores' totals are the sixteen tile totals. -/
theorem cores_sum (c : Dev nD) :
    Out.coreTotal m c 0 + Out.coreTotal m c 1 = ∑ k ∈ Finset.range 16, Acc.pointTotal m c k := by
  unfold Out.coreTotal
  rw [show (16 : ℕ) = 8 + 8 from rfl, Finset.sum_range_add]
  simp only [Nat.mul_zero, Nat.zero_add, Nat.mul_one]

/-- The host tail applied to the array of partial sums: the negated mean of the arguments' total. -/
theorem tail_value (c : Dev nD) :
    Pipeline.afterTail₀ cfgs (dats m) 0 (V0 m) [hostOps1] c main_v6 = fun _ => negMean (argsTotal m c) := by
  unfold Pipeline.afterTail₀
  show StableHlo.after hostOps1 _ (Proc.devRef .tc main_v6) = _
  after_results
  have harr : Pipeline.withArrays (cfgs 0).spec c (V0 m c) (fun w => (dats m 0 c).arrAt w (cfgs 0).N) (Proc.tc.devRef main_v2)
      = Out.partials m c := (Pipeline.withArrays_arr spec0 launch0.win.arr_inj c _ _ 2).trans (Out.final m c)
  rw [harr]
  funext x
  show Ideal.div (-(Ideal.div (Host.reduceAdd (F := Ideal) (Out.partials m c) (constant S_ .f32 0x00000000#32) reducesTo_S16x128_S_d0_1 h_S_ x)
      (Ideal.ofBits .f32 0x44800000#32))) (Ideal.ofBits .f32 0x4B800000#32) = negMean (argsTotal m c)
  have hsum : Host.reduceAdd (F := Ideal) (Out.partials m c) (constant S_ .f32 0x00000000#32) reducesTo_S16x128_S_d0_1 h_S_ x
      = (1024 : ℕ) • (Out.coreTotal m c 0 + Out.coreTotal m c 1) := by
    simp only [Host.reduceAdd, Ideal.hostReduceAdd_def]
    refine (Ideal.hostReduceAdd_total reducesTo_S16x128_S_d0_1 (fun b => b.elim0) _ _ x).trans ?_
    show Ideal.ofBits .f32 0x00000000#32 + ∑ i : S16x128.Idx, Out.coreTotal m c ((i 0).val / 8) = _
    rw [Ideal.ofBits_zero_f32, zero_add]
    exact partials_sum m c
  rw [hsum, copies_div, cores_sum, Cover.totals_sum]
  rfl

/-- The kernel's run, read: every weakly fair execution ends with the result at the negated mean of the arguments'
    total, and the two arguments as launched. -/
theorem run : θ_run defs (onTc (τ := τ) (main (F := Ideal))) ⟨m, fun _ => 0, ρ⟩ fun r => ∀ c : Dev nD,
      r.2.mem ((c.tc : Thread nD τ).loc main_v6) = (fun _ => negMean (argsTotal m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (Pipeline.mem_restRefs_of main_v6 (by decide) (by decide))).trans (tail_value m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.BceMean.Kernel

end
-- ==== Proof.lean ====
/- The claim: a binary cross-entropy mean computed by a two-core tiled accumulation equals jnp's whole-array mean,
   on the extended reals.

   Both programs compute, for logits `x` and labels `l` of shape [64, 1, 512, 512],
       −( Σ  l · log(σ x + ε) + (1 − l) · log(1 − σ x + ε) ) / 2^24,        σ x = 1 / (1 + e^(−x)).
   The reference sums over every index at once. The kernel views the arguments as [32768, 512], cuts them into sixteen
   tiles of 2048 rows, and lets each of two cores add its eight tile totals into every entry of an [8, 128] block;
   the host then sums the two blocks, divides by the 1024 entries of a block, negates and divides by 2^24.

   The modules: LossTerm (the summand, the word of one, and "1024 copies of S, summed and divided by 1024, are S" on
   every extended real), RefMean (the reference, read operation by operation, is the negated mean of the total of the
   summand), TileTotal (one body run adds its tile's total to every entry of the block), RunningSum (the block after
   each grid point, by induction on the point), OutputArray (the [16, 128] array the region leaves: core r / 8's total
   at row r), TileCover (the sixteen tiles partition the reshaped arrays, and the reshape renames indices), KernelMean
   (the host tail, and the kernel's run). Only commutativity and associativity of the extended reals' addition and the
   behaviour of a positive real factor at the infinities are used, so the finiteness of the inputs is never opened. -/
import proofs.«159125_j76184129897141_2_alg».proof.Defs
import proofs.«159125_j76184129897141_2_alg».proof.Proof.Gen.Kernel
import proofs.«159125_j76184129897141_2_alg».proof.Proof.Gen.Kernel.Skeleton
import proofs.«159125_j76184129897141_2_alg».proof.Proof.Gen.Kernel.Launch
import proofs.«159125_j76184129897141_2_alg».proof.Proof.Gen.Kernel.Points
import proofs.«159125_j76184129897141_2_alg».proof.Proof.Gen.Kernel.Frame
import proofs.«159125_j76184129897141_2_alg».proof.Proof.Gen.KernelIdeal
import proofs.«159125_j76184129897141_2_alg».proof.Proof.Gen.KernelIdeal.Skeleton
import proofs.«159125_j76184129897141_2_alg».proof.Proof.Gen.KernelIdeal.Launch
import proofs.«159125_j76184129897141_2_alg».proof.Proof.Gen.KernelIdeal.Points
import proofs.«159125_j76184129897141_2_alg».proof.Proof.Gen.KernelIdeal.Frame
import proofs.«159125_j76184129897141_2_alg».proof.Proof.Gen.ReferenceIdeal
import proofs.«159125_j76184129897141_2_alg».proof.Proof.Gen.ReferenceIdeal.Run
import proofs.«159125_j76184129897141_2_alg».proof.Proof.Gen.ReferenceIdeal.Read
import proofs.«159125_j76184129897141_2_alg».proof.Proof.Gen.Pre_finite_inputs
import proofs.«159125_j76184129897141_2_alg».proof.Proof.RefMean
import proofs.«159125_j76184129897141_2_alg».proof.Proof.KernelMean
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end at the negated mean of the total of the summand over the arguments, which agree. -/
theorem algebraic : Cert.algebraic_KernelIdeal_ReferenceIdeal := by
  intro m ρ m' ρ' _ hagree
  refine ⟨fun c => fun _ => Cert.BceMean.negMean (Cert.BceMean.Kernel.argsTotal m c), Cert.BceMean.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.BceMean.Ref.result, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
